-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S100000x1024 : Shape := ⟨2, ![100000, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_

variable [Facts]

def fn {F : FTy → Type} [FloatOps F] (main_arg0 : FVec F S32x1x1024 .f32) (main_arg1 : FVec F S100000x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  main_v8
-- ==== Kernel.lean ====
abbrev S32x1x1024 : Shape := ⟨3, ![32, 1, 1024]⟩
abbrev S100000x1024 : Shape := ⟨2, ![100000, 1024]⟩
abbrev S32x1x100000 : Shape := ⟨3, ![32, 1, 100000]⟩
abbrev S2048x1024 : Shape := ⟨2, ![2048, 1024]⟩
abbrev S32x1x2048 : Shape := ⟨3, ![32, 1, 2048]⟩
abbrev S32x1024 : Shape := ⟨2, ![32, 1024]⟩
abbrev S32x2048 : Shape := ⟨2, ![32, 2048]⟩

abbrev nBuf : Space → Nat
  | .hbm => 3
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S100000x1024, .f32⟩
  | .hbm, ⟨2, _⟩ => ⟨S32x1x100000, .f32⟩
  | .local _ .vmem, ⟨0, _⟩ => ⟨S32x1x1024, .f32⟩
  | .local _ .vmem, ⟨1, _⟩ => ⟨S2048x1024, .f32⟩
  | .local _ .vmem, ⟨2, _⟩ => ⟨S2048x1024, .f32⟩
  | .local _ .vmem, ⟨3, _⟩ => ⟨S32x1x2048, .f32⟩
  | .local _ .vmem, ⟨4, _⟩ => ⟨S32x1x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S32x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x1x1024_S32x1x1024_0_0_0 : ∀ a, (![0, 0, 0] : Fin 3 → Nat) a + S32x1x1024.size a ≤ S32x1x1024.size a
  h_S32x1x1024 : 0 < S32x1x1024.numel
  shapeCasts_S32x1x1024_S32x1024 : S32x1x1024.ShapeCasts S32x1024
  inb_S2048x1024_S2048x1024_0_0 : ∀ a, (![0, 0] : Fin 2 → Nat) a + S2048x1024.size a ≤ S2048x1024.size a
  h_S2048x1024 : 0 < S2048x1024.numel
  inb_S32x1x2048_S32x1x2048_0_0_0 : ∀ a, (![0, 0, 0] : Fin 3 → Nat) a + S32x1x2048.size a ≤ S32x1x2048.size a
  h_S32x1x2048 : 0 < S32x1x2048.numel
  shapeCasts_S32x1x2048_S32x2048 : S32x1x2048.ShapeCasts S32x2048
  shapeCasts_S32x2048_S32x1x2048 : S32x2048.ShapeCasts S32x1x2048
  dot_S32x1024_S2048x1024_S32x2048_1_1_0_0_n_n_wf : DotDims.WF S32x1024 S2048x1024 S32x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1x1024.size a ≤ S32x1x1024.size a
  hwx0_0 : ∀ i : grid0.Coords, EltTy.bits .f32 = 32 ∨ (Rect.block (s := S32x1x1024) S32x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x1x2048.size a < S32x1x100000.size a
  hwx0_2 : ∀ i : grid0.Coords, EltTy.bits .f32 = 32 ∨ (Rect.unit (s := S32x1x100000) (fun a => cc0_transform_2 i a * S32x1x2048.size a) (fun a => (Pipeline.Clip.of (cc0_transform_2 i a) (S32x1x2048.size a) (S32x1x100000.size a)).extent (S32x1x2048.size a)) fun a => Pipeline.Clip.inb (Pipeline.Clip.ok_of (hstart0_2 i a))).WholeWords (EltTy.packing .f32)
  hwxs0_2 : ∀ i : grid0.Coords, EltTy.bits .f32 = 32 ∨ (Rect.unit (s := S32x1x2048) (fun _ => 0) (fun a => (Pipeline.Clip.of (cc0_transform_2 i a) (S32x1x2048.size a) (S32x1x100000.size a)).extent (S32x1x2048.size a)) fun a => (Nat.zero_add _).trans_le (Pipeline.Clip.extent_le (Pipeline.Clip.ok_of (hstart0_2 i a)))).WholeWords (EltTy.packing .f32)

variable [Facts₀]

def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf

abbrev win0_0 : Pipeline.Window sig grid0 :=
  Pipeline.Window.ofSpec (Memref.whole main_arg0) S32x1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S32x1x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S100000x1024 : Shape := ⟨2, ![100000, 1024]⟩
abbrev S32x1x100000 : Shape := ⟨3, ![32, 1, 100000]⟩

abbrev nBuf : Space → Nat
  | .hbm => 3
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S100000x1024, .f32⟩
  | .hbm, ⟨2, _⟩ => ⟨S32x1x100000, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x1x1024_S100000x1024_S32x1x100000_2_1_01_0_n_n_wf : DotDims.WF S32x1x1024 S100000x1024 S32x1x100000 [2] [1] [0, 1] [0] [] []

variable [Facts₀]

def dot_S32x1x1024_S100000x1024_S32x1x100000_2_1_01_0_n_n : DotDims S32x1x1024 S100000x1024 S32x1x100000 where
  lhsContracting := [2]
  rhsContracting := [1]
  lhsNonContracting := [0, 1]
  rhsNonContracting := [0]
  lhsBatch := []
  rhsBatch := []
  wf := dot_S32x1x1024_S100000x1024_S32x1x100000_2_1_01_0_n_n_wf

class Facts : Prop extends Facts₀ where

variable [Facts]
-- ==== Proof.HeadBody.lean ====
/-
  The kernel body of `Kernel` on whole staging memrefs, at any float instance.

  At one grid point the body reads the whole hidden block `x0 : [32, 1, 1024]` and the whole weight block
  `x1 : [2048, 1024]`, forms the product `x0 · x1ᵀ` into a zero accumulator (contracting the 1024 axis of both),
  and stores the `[32, 1, 2048]` result over the whole output block. It also reads the output block once, a read
  whose value nothing uses. So the two input buffers are left as found and the output buffer ends holding one
  pure term of the two inputs, `headBlock x0 x1`, whatever it held before.
-/
import proofs.«181677_g17927193493834_cont_7to1_830_20_alg».proof.Proof.Gen.Kernel.Launch
import proofs.«181677_g17927193493834_cont_7to1_830_20_alg».proof.Proof.Gen.Kernel.Skeleton
import proofs.«181677_g17927193493834_cont_7to1_830_20_alg».proof.Proof.Gen.Kernel.Points
import proofs.«181677_g17927193493834_cont_7to1_830_20_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three whole-block accesses -/

/-- The whole hidden block, the whole weight block, the whole output block. -/
abbrev rHidden : Rect S32x1x1024 := Rect.unit (s := S32x1x1024) ![0, 0, 0] S32x1x1024.size inb_S32x1x1024_S32x1x1024_0_0_0
abbrev rWeight : Rect S2048x1024 := Rect.unit (s := S2048x1024) ![0, 0] S2048x1024.size inb_S2048x1024_S2048x1024_0_0
abbrev rOut : Rect S32x1x2048 := Rect.unit (s := S32x1x2048) ![0, 0, 0] S32x1x2048.size inb_S32x1x2048_S32x1x2048_0_0_0

/-- What the output buffer holds after the body: its one store, over the whole block, of the product of what the
    two loads read. -/
def headBlock (x0 : Vec F S32x1x1024 .f32) (x1 : Vec F S2048x1024 .f32) : Vec F S32x1x2048 .f32 :=
  View.canon [⟨rOut, k0_pay1 (View.ld x0 rHidden) (View.ld x1 rWeight)⟩]

/-- The one store covers the output block. -/
theorem headCover (p0 : Vec F S32x1x2048 .f32) (y : S32x1x2048.Idx) :
    ∃ pc ∈ ([⟨rOut, p0⟩] : List (View.Piece (Elt F) S32x1x2048 .f32)), y ∈ pc.1.set :=
  View.cover_of_tiled [⟨rOut, p0⟩] S32x1x2048.size (by rfl) y

/-! ## The body's triple -/

set_option maxHeartbeats 1000000 in
/-- The body on whole memrefs holding `x0`, `x1` and anything: it runs, leaves the first two as they were and the
    third at `headBlock x0 x1`. -/
theorem sound_kernel (c : Dev nD) (E : Set ℕ) (i : grid0.Coords)
    (arg1 : Memref sig .tc .vmem S32x1x1024 .f32) (harg1 : arg1.IsWhole)
    (arg2 : Memref sig .tc .vmem S2048x1024 .f32) (harg2 : arg2.IsWhole)
    (arg3 : Memref sig .tc .vmem S32x1x2048 .f32) (harg3 : arg3.IsWhole)
    (x0 : Vec F S32x1x1024 .f32) (x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (headBlock x0 x1)) -∗ K ⟨⟩))
      ⊢ wp frame (wpE (defs₀ (F := F)) Variants.none c none) E (cc0__head_kernel i arg1 harg1 arg2 harg2 arg3 harg3) K := by
  simp only [cc0__head_kernel_eq_skeleton]; unfold cc0__head_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (headCover _)

/-! ## The output block as the plain payload -/

theorem hz3 : (![0, 0, 0] : Fin 3 → Nat) = fun _ => 0 := funext fun a => by fin_cases a <;> rfl
theorem hz2 : (![0, 0] : Fin 2 → Nat) = fun _ => 0 := funext fun a => by fin_cases a <;> rfl

/-- All three accesses are of whole blocks at offset zero, so the output block is the payload of the two input
    blocks themselves. -/
theorem headBlock_eq (x0 : Vec F S32x1x1024 .f32) (x1 : Vec F S2048x1024 .f32) : headBlock x0 x1 = k0_pay1 x0 x1 := by
  unfold headBlock
  rw [View.canon_unit_zero hz3]
  simp only [View.ld_unit_zero (S := S32x1x1024) hz3, View.ld_unit_zero (S := S2048x1024) hz2]

end Cert.Kernel.Head

end
-- ==== Proof.HeadFrame.lean ====
/-
  The word-level kernel's frame: it runs to the end, faults nowhere, and leaves both argument arrays as launched.

  At the word level nothing is said of the logits' values, so the result window is forgotten: its staging buffer is
  handed to the body at any contents and taken back at any contents. The hidden buffer holds the hidden array at
  every point and the body only reads it. The weight buffer holds the point's rows inside the matrix and, at the
  last point, 352 rows of values nothing names; the body only reads it, so it leaves it as found. Neither
  argument array is ever written back.
-/
import proofs.«181677_g17927193493834_cont_7to1_830_20_alg».proof.Proof.HeadBody

set_option maxRecDepth 16384

noncomputable section

namespace Cert.Kernel.Frame

open Cert.Kernel Cert.Kernel.Gen Cert.Kernel.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result window is forgotten. -/
def forgets : Fin 3 → Bool := fun w => w.val == 2

/-- After the body at point `t`: the hidden buffer at the hidden array; the weight buffer at the point's rows inside
    the matrix, a zero word on the rows past its end (a filler: nothing reads it); the result buffer unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by dsimp only [dats]

/-- The hidden buffer holds the hidden array at every point: fetched at the first, left in place since. -/
theorem before0_0 (c : Dev nD) (t : Fin cfg0.N) (d) : (dats m 0 c).before 0 t d = iblk m c 0 t :=
  before0_0_of m (dats m 0 c) (A_eq m c 0) (after0_0 m c) t d

/-- The weight buffer was just fetched: the point's rows inside the matrix, and `d` past its end. -/
theorem before0_1 (c : Dev nD) (t : Fin cfg0.N) (d) :
    (dats m 0 c).before 1 t d = win0_1.fill (grid0.coords t) d (iblk m c 1 t) := by
  unfold Dat.before; rw [if_pos (fetch0_1 t)]; rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the hidden buffer as it was, the weight buffer as it was on the rows inside the matrix,
    the result buffer at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  simp only [Window.cut_fill]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

/-- The library's body obligation, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, faulting nowhere, with each input array of the pipeline at what
    it may hold after every write-back. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- An input array is never written back, so it ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((congrFun (((dats m 0 c).toRForget forgets).ArrAt_in 0 rfl cfg0.N) _).mp ((h c).1 0)).trans ((A_eq m c 0).trans (V_main_arg0 m c)),
     ((congrFun (((dats m 0 c).toRForget forgets).ArrAt_in 1 rfl cfg0.N) _).mp ((h c).1 1)).trans ((A_eq m c 1).trans (V_main_arg1 m c))⟩)
    (run_main m ρ)

end Cert.Kernel.Frame

end
-- ==== Proof.HeadBodyIdeal.lean ====
/-
  The kernel body of `KernelIdeal` on whole staging memrefs, at any float instance.

  At one grid point the body reads the whole hidden block `x0 : [32, 1, 1024]` and the whole weight block
  `x1 : [2048, 1024]`, forms the product `x0 · x1ᵀ` into a zero accumulator (contracting the 1024 axis of both),
  and stores the `[32, 1, 2048]` result over the whole output block. It also reads the output block once, a read
  whose value nothing uses. So the two input buffers are left as found and the output buffer ends holding one
  pure term of the two inputs, `headBlock x0 x1`, whatever it held before.
-/
import proofs.«181677_g17927193493834_cont_7to1_830_20_alg».proof.Proof.Gen.KernelIdeal.Launch
import proofs.«181677_g17927193493834_cont_7to1_830_20_alg».proof.Proof.Gen.KernelIdeal.Skeleton
import proofs.«181677_g17927193493834_cont_7to1_830_20_alg».proof.Proof.Gen.KernelIdeal.Points
import proofs.«181677_g17927193493834_cont_7to1_830_20_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three whole-block accesses -/

/-- The whole hidden block, the whole weight block, the whole output block. -/
abbrev rHidden : Rect S32x1x1024 := Rect.unit (s := S32x1x1024) ![0, 0, 0] S32x1x1024.size inb_S32x1x1024_S32x1x1024_0_0_0
abbrev rWeight : Rect S2048x1024 := Rect.unit (s := S2048x1024) ![0, 0] S2048x1024.size inb_S2048x1024_S2048x1024_0_0
abbrev rOut : Rect S32x1x2048 := Rect.unit (s := S32x1x2048) ![0, 0, 0] S32x1x2048.size inb_S32x1x2048_S32x1x2048_0_0_0

/-- What the output buffer holds after the body: its one store, over the whole block, of the product of what the
    two loads read. -/
def headBlock (x0 : Vec F S32x1x1024 .f32) (x1 : Vec F S2048x1024 .f32) : Vec F S32x1x2048 .f32 :=
  View.canon [⟨rOut, k0_pay1 (View.ld x0 rHidden) (View.ld x1 rWeight)⟩]

/-- The one store covers the output block. -/
theorem headCover (p0 : Vec F S32x1x2048 .f32) (y : S32x1x2048.Idx) :
    ∃ pc ∈ ([⟨rOut, p0⟩] : List (View.Piece (Elt F) S32x1x2048 .f32)), y ∈ pc.1.set :=
  View.cover_of_tiled [⟨rOut, p0⟩] S32x1x2048.size (by rfl) y

/-! ## The body's triple -/

set_option maxHeartbeats 1000000 in
/-- The body on whole memrefs holding `x0`, `x1` and anything: it runs, leaves the first two as they were and the
    third at `headBlock x0 x1`. -/
theorem sound_kernel (c : Dev nD) (E : Set ℕ) (i : grid0.Coords)
    (arg1 : Memref sig .tc .vmem S32x1x1024 .f32) (harg1 : arg1.IsWhole)
    (arg2 : Memref sig .tc .vmem S2048x1024 .f32) (harg2 : arg2.IsWhole)
    (arg3 : Memref sig .tc .vmem S32x1x2048 .f32) (harg3 : arg3.IsWhole)
    (x0 : Vec F S32x1x1024 .f32) (x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (headBlock x0 x1)) -∗ K ⟨⟩))
      ⊢ wp frame (wpE (defs₀ (F := F)) Variants.none c none) E (cc0__head_kernel i arg1 harg1 arg2 harg2 arg3 harg3) K := by
  simp only [cc0__head_kernel_eq_skeleton]; unfold cc0__head_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (headCover _)

/-! ## The output block as the plain payload -/

theorem hz3 : (![0, 0, 0] : Fin 3 → Nat) = fun _ => 0 := funext fun a => by fin_cases a <;> rfl
theorem hz2 : (![0, 0] : Fin 2 → Nat) = fun _ => 0 := funext fun a => by fin_cases a <;> rfl

/-- All three accesses are of whole blocks at offset zero, so the output block is the payload of the two input
    blocks themselves. -/
theorem headBlock_eq (x0 : Vec F S32x1x1024 .f32) (x1 : Vec F S2048x1024 .f32) : headBlock x0 x1 = k0_pay1 x0 x1 := by
  unfold headBlock
  rw [View.canon_unit_zero hz3]
  simp only [View.ld_unit_zero (S := S32x1x1024) hz3, View.ld_unit_zero (S := S2048x1024) hz2]

end Cert.KernelIdeal.Head

end
-- ==== Proof.HeadProduct.lean ====
/-
  The body's product block read at an index, over the extended reals.

  The body casts the hidden block `[32, 1, 1024]` to `[32, 1024]` (the unit axis dropped), multiplies it with the
  weight block `[2048, 1024]` contracting the 1024 axis of both into a zero accumulator, and casts the `[32, 2048]`
  product back to `[32, 1, 2048]`. Read at `(b, z, v)` the result is `∑ k < 1024, x0 (b, 0, k) · x1 (v, k)`:
  column `v` of the block reads row `v` of the weight block and no other.
-/
import proofs.«181677_g17927193493834_cont_7to1_830_20_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Product

open Cert.KernelIdeal Cert.KernelIdeal.Gen Idealize.ShloMosaic Idealize.ShloMosaic.ValueIdx

/-- Dropping the middle unit axis: `(b, k)` of the cast is `(b, 0, k)` of the block. -/
theorem castHidden_apply {α : Type} (x : S32x1x1024.Idx → α) (h : S32x1x1024.ShapeCasts S32x1024) (b : Fin 32) (k : Fin 1024) :
    shapeCast S32x1024 x h (ix2 b k) = x (ix3 b (0 : Fin 1) k) := by
  refine shapeCast_apply x h _ _ ?_
  rw [Shape.rowMajor_val_three, Shape.rowMajor_val_two]
  show (b.val * 1 + 0) * 1024 + k.val = b.val * 1024 + k.val
  omega

/-- Adding it back: `(b, z, v)` of the cast is `(b, v)` of the product. -/
theorem castOut_apply {α : Type} (y : S32x2048.Idx → α) (h : S32x2048.ShapeCasts S32x1x2048) (b : Fin 32) (z : Fin 1) (v : Fin 2048) :
    shapeCast S32x1x2048 y h (ix3 b z v) = y (ix2 b v) := by
  refine shapeCast_apply y h _ _ ?_
  rw [Shape.rowMajor_val_three, Shape.rowMajor_val_two]
  have hz : z.val = 0 := by omega
  show b.val * 2048 + v.val = (b.val * 1 + z.val) * 2048 + v.val
  omega

/-- The product's operand indices: the left operand at `(b, k)`, the right at `(v, k)`. -/
theorem lhs_0 (j : S32x2048.Idx) (q : dot_S32x1024_S2048x1024_S32x2048_1_1_0_0_n_n.contr.Idx) : (dot_S32x1024_S2048x1024_S32x2048_1_1_0_0_n_n.lhsIdx j q 0).val = (j 0).val := by
  unfold DotDims.lhsIdx
  rw [dif_neg (show ¬(0 : Fin S32x1024.rank) ∈ dot_S32x1024_S2048x1024_S32x2048_1_1_0_0_n_n.lhsBatch by decide), dif_pos (show (0 : Fin S32x1024.rank) ∈ dot_S32x1024_S2048x1024_S32x2048_1_1_0_0_n_n.lhsNonContracting by decide)]
  rfl
theorem lhs_1 (j : S32x2048.Idx) (q : dot_S32x1024_S2048x1024_S32x2048_1_1_0_0_n_n.contr.Idx) : (dot_S32x1024_S2048x1024_S32x2048_1_1_0_0_n_n.lhsIdx j q 1).val = (q ⟨0, by decide⟩).val :=
  dot_S32x1024_S2048x1024_S32x2048_1_1_0_0_n_n.lhsIdx_val_of_single rfl j q
theorem rhs_0 (j : S32x2048.Idx) (q : dot_S32x1024_S2048x1024_S32x2048_1_1_0_0_n_n.contr.Idx) : (dot_S32x1024_S2048x1024_S32x2048_1_1_0_0_n_n.rhsIdx j q 0).val = (j 1).val := by
  unfold DotDims.rhsIdx
  rw [dif_neg (show ¬(0 : Fin S2048x1024.rank) ∈ dot_S32x1024_S2048x1024_S32x2048_1_1_0_0_n_n.rhsBatch by decide), dif_pos (show (0 : Fin S2048x1024.rank) ∈ dot_S32x1024_S2048x1024_S32x2048_1_1_0_0_n_n.rhsNonContracting by decide)]
  rfl
theorem rhs_1 (j : S32x2048.Idx) (q : dot_S32x1024_S2048x1024_S32x2048_1_1_0_0_n_n.contr.Idx) : (dot_S32x1024_S2048x1024_S32x2048_1_1_0_0_n_n.rhsIdx j q 1).val = (q ⟨0, by decide⟩).val :=
  dot_S32x1024_S2048x1024_S32x2048_1_1_0_0_n_n.rhsIdx_val_of_single rfl j q

/-- The product block at `(b, z, v)`. -/
theorem product_apply (x0 : Vec Ideal S32x1x1024 .f32) (x1 : Vec Ideal S2048x1024 .f32) (b : Fin 32) (z : Fin 1) (v : Fin 2048) :
    k0_pay1 (F := Ideal) x0 x1 (ix3 b z v) = ∑ k : Fin 1024, x0 (ix3 b (0 : Fin 1) k) * x1 (ix2 v k) := by
  unfold k0_pay1
  refine (castOut_apply _ _ b z v).trans ?_
  refine (Ideal.matmul_constant_zero_apply dot_S32x1024_S2048x1024_S32x2048_1_1_0_0_n_n none _ _ (ix2 b v)).trans ?_
  rw [← Equiv.sum_comp (contrEquiv1 dot_S32x1024_S2048x1024_S32x2048_1_1_0_0_n_n 1024 rfl rfl).symm]
  refine Finset.sum_congr rfl fun k _ => ?_
  have hk := contrEquiv1_symm_val dot_S32x1024_S2048x1024_S32x2048_1_1_0_0_n_n 1024 rfl rfl k
  have el : dot_S32x1024_S2048x1024_S32x2048_1_1_0_0_n_n.lhsIdx (ix2 b v) ((contrEquiv1 dot_S32x1024_S2048x1024_S32x2048_1_1_0_0_n_n 1024 rfl rfl).symm k) = ix2 b k := funext fun a => Fin.ext (by
    match a with
    | ⟨0, _⟩ => exact lhs_0 _ _
    | ⟨1, _⟩ => exact (lhs_1 _ _).trans hk)
  have er : dot_S32x1024_S2048x1024_S32x2048_1_1_0_0_n_n.rhsIdx (ix2 b v) ((contrEquiv1 dot_S32x1024_S2048x1024_S32x2048_1_1_0_0_n_n 1024 rfl rfl).symm k) = ix2 v k := funext fun a => Fin.ext (by
    match a with
    | ⟨0, _⟩ => exact rhs_0 _ _
    | ⟨1, _⟩ => exact (rhs_1 _ _).trans hk)
  rw [el, er, castHidden_apply]

end Cert.KernelIdeal.Product

end
-- ==== Proof.Logits.lean ====
/-
  The output head as one function of its two arguments, over the extended reals.

  For hidden states `h : [32, 1, 1024]` and a weight matrix `w : [100000, 1024]` the logits are
  `logits h w (b, z, v) = ∑ k < 1024, h (b, z, k) · w (v, k)`: entry `(b, z, v)` pairs row `(b, z)` of the hidden
  states with row `v` of the weights and depends on no other weight row. Addition of extended reals is
  commutative and associative, so the sum needs no order and no finiteness.
-/
import Idealize.ShloMosaic.PureOps.Ideal
import Idealize.ShloMosaic.Lib.ValueIdx

noncomputable section

namespace Cert.Logits

open Idealize.ShloMosaic Idealize.ShloMosaic.ValueIdx

abbrev SHid : Shape := ⟨3, ![32, 1, 1024]⟩
abbrev SWgt : Shape := ⟨2, ![100000, 1024]⟩
abbrev SOut : Shape := ⟨3, ![32, 1, 100000]⟩

/-- One logit: hidden row `(b, z)` against weight row `v`. -/
def logitAt (h : SHid.Idx → EReal) (w : SWgt.Idx → EReal) (b : Fin 32) (z : Fin 1) (v : Fin 100000) : EReal :=
  ∑ k : Fin 1024, h (ix3 b z k) * w (ix2 v k)

/-- All of them. -/
def logits (h : SHid.Idx → EReal) (w : SWgt.Idx → EReal) : SOut.Idx → EReal :=
  fun i => logitAt h w (i 0) (i 1) (i 2)

theorem logits_ix3 (h : SHid.Idx → EReal) (w : SWgt.Idx → EReal) (b : Fin 32) (z : Fin 1) (v : Fin 100000) :
    logits h w (ix3 b z v) = logitAt h w b z v := rfl

end Cert.Logits

end
-- ==== Proof.HeadRunIdeal.lean ====
/-
  The idealized kernel's run, over the extended reals: the logits array ends at `logits hidden weight`.

  The grid has 49 points; point `t` stages the whole hidden array (fetched once, at the first point, and found in
  place afterwards), rows `2048·t ‥ 2048·t + 2047` of the weight matrix, and writes back columns
  `2048·t ‥ 2048·t + 2047` of the logits. 100000 = 48·2048 + 1696, so at the last point only the first 1696 weight
  rows are fetched — the staging buffer's other 352 rows hold values nothing names — and only the first 1696
  columns of the result block are written back. Column `v` of the product reads weight row `v` alone, so the
  columns written back are computed from fetched rows only: they are block `t` of `logits`. The blocks' column
  ranges `[2048·t, min (2048·t + 2048) 100000)` cover `[0, 100000)`, so the whole array ends at `logits`.
-/
import proofs.«181677_g17927193493834_cont_7to1_830_20_alg».proof.Proof.HeadBodyIdeal
import proofs.«181677_g17927193493834_cont_7to1_830_20_alg».proof.Proof.HeadProduct
import proofs.«181677_g17927193493834_cont_7to1_830_20_alg».proof.Proof.Logits

set_option maxRecDepth 16384

noncomputable section

namespace Cert.KernelIdeal.Run

open Cert.KernelIdeal Cert.KernelIdeal.Gen Cert.KernelIdeal.Head
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The array the logits end at, and the proof data -/

/-- `logits` of the two argument arrays as launched. -/
def outArr (c : Dev nD) : Buf (Elt Ideal) ((c : Thread nD τ).loc main_v0) :=
  Cert.Logits.logits (m ((c : Thread nD τ).loc main_arg0)) (m ((c : Thread nD τ).loc main_arg1))

/-- After the body at point `t`: the hidden buffer at the hidden array; the weight buffer at the weight rows of the
    point, zero on the rows past the matrix's end (a filler: nothing reads it); the result buffer at block `t` of
    `logits`, zero on the columns past the array's end (a filler likewise). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (FloatOps.ofBits (F := Ideal) FTy.f32 0#32 : Elt Ideal .f32)) (iblk m c 1 t)
    | ⟨2, _⟩ => win0_2.fill (grid0.coords t) (fun _ => (FloatOps.ofBits (F := Ideal) FTy.f32 0#32 : Elt Ideal .f32)) ((win0_2.blk t).view.read (Elt Ideal) (outArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (FloatOps.ofBits (F := Ideal) FTy.f32 0#32 : Elt Ideal .f32)) (iblk m c 1 t) := by dsimp only [dats]
theorem after0_2 (c : Dev nD) (t : Fin cfg0.N) :
    (dats m 0 c).after 2 t = win0_2.fill (grid0.coords t) (fun _ => (FloatOps.ofBits (F := Ideal) FTy.f32 0#32 : Elt Ideal .f32)) ((win0_2.blk t).view.read (Elt Ideal) (outArr m c)) := by
  dsimp only [dats]

/-! ## What the body finds -/

/-- The hidden buffer holds the hidden array at every point: fetched at the first, left in place since. -/
theorem before0_0 (c : Dev nD) (t : Fin cfg0.N) (d) : (dats m 0 c).before 0 t d = iblk m c 0 t :=
  before0_0_of m (dats m 0 c) (A_eq m c 0) (after0_0 m c) t d

/-- The weight buffer was just fetched: the point's rows inside the matrix, and `d` past its end. -/
theorem before0_1 (c : Dev nD) (t : Fin cfg0.N) (d) :
    (dats m 0 c).before 1 t d = win0_1.fill (grid0.coords t) d (iblk m c 1 t) := by
  unfold Dat.before; rw [if_pos (fetch0_1 t)]; rfl

/-- The result buffer holds anything: every point writes it back. -/
theorem before0_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The windows' index maps and cuts, decided over the grid -/

theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = t.val :=
  (by decide +kernel : ∀ t : Fin grid0.N, _)

theorem cut_facts : ∀ t : Fin cfg0.N,
    win0_1.xsize (grid0.coords t) (0 : Fin 2) = min 2048 (100000 - t.val * 2048)
    ∧ win0_1.xsize (grid0.coords t) (1 : Fin 2) = 1024
    ∧ win0_2.xsize (grid0.coords t) (0 : Fin 3) = 32
    ∧ win0_2.xsize (grid0.coords t) (1 : Fin 3) = 1
    ∧ win0_2.xsize (grid0.coords t) (2 : Fin 3) = min 2048 (100000 - t.val * 2048) :=
  (by decide +kernel : ∀ t : Fin grid0.N, _)

/-! ## The staged blocks read at coordinates -/

/-- The hidden block is the hidden array. -/
theorem hidden_read (c : Dev nD) (t : Fin cfg0.N) (b : Fin 32) (z : Fin 1) (k : Fin 1024) :
    iblk m c 0 t (ix3 b (0 : Fin 1) k) = m ((c : Thread nD τ).loc main_arg0) (ix3 b z k) := by
  obtain ⟨e0, e1, e2, -⟩ := idx_facts t
  show V m c main_arg0 (((cfg0.win 0).blk t).view.emb (ix3 b (0 : Fin 1) k)) = V m c main_arg0 (ix3 b z k)
  refine congrArg _ (funext fun a => Fin.ext ?_)
  match a with
  | ⟨0, _⟩ => show win0_0.index t (0 : Fin 3) * 32 + 1 * b.val = b.val; omega
  | ⟨1, _⟩ => show win0_0.index t (1 : Fin 3) * 1 + 1 * (0 : Fin 1).val = z.val; omega
  | ⟨2, _⟩ => show win0_0.index t (2 : Fin 3) * 1024 + 1 * k.val = k.val; omega

/-- Row `v` of the fetched weight buffer, when row `2048·t + v` is inside the matrix, is that row — whatever the
    buffer held past the matrix's end. -/
theorem weight_read (c : Dev nD) (t : Fin cfg0.N) (d : S2048x1024.Idx → Elt Ideal .f32) (v : Fin 2048) (k : Fin 1024)
    (hv : t.val * 2048 + v.val < 100000) :
    win0_1.fill (grid0.coords t) d (iblk m c 1 t) (ix2 v k)
      = m ((c : Thread nD τ).loc main_arg1) (ix2 (⟨t.val * 2048 + v.val, hv⟩ : Fin 100000) k) := by
  obtain ⟨-, -, -, e3, e4, -⟩ := idx_facts t
  obtain ⟨x0, x1, -⟩ := cut_facts t
  have hmv : win0_1.moved (grid0.coords t) (ix2 v k) = true := (win0_1.moved_iff _ _).mpr fun a => by
    match a with
    | ⟨0, _⟩ => show v.val < win0_1.xsize (grid0.coords t) (0 : Fin 2); rw [x0]; omega
    | ⟨1, _⟩ => show k.val < win0_1.xsize (grid0.coords t) (1 : Fin 2); rw [x1]; exact k.isLt
  unfold Window.fill
  rw [dif_pos hmv]
  show V m c main_arg1 (((cfg0.win 1).blk t).view.emb _) = V m c main_arg1 _
  refine congrArg _ (funext fun a => Fin.ext ?_)
  match a with
  | ⟨0, _⟩ => show win0_1.index t (0 : Fin 2) * 2048 + 1 * v.val = t.val * 2048 + v.val; rw [e3]; omega
  | ⟨1, _⟩ => show win0_1.index t (1 : Fin 2) * 1024 + 1 * k.val = k.val; rw [e4]; omega

/-! ## The columns written back are block `t` of `logits` -/

theorem head_cut (c : Dev nD) (t : Fin cfg0.N) (d : S2048x1024.Idx → Elt Ideal .f32) :
    win0_2.cut (grid0.coords t) (k0_pay1 (F := Ideal) (iblk m c 0 t) (win0_1.fill (grid0.coords t) d (iblk m c 1 t)))
      = (win0_2.blk t).view.read (Elt Ideal) (outArr m c) := by
  funext j
  obtain ⟨-, -, -, -, -, e5, e6, e7⟩ := idx_facts t
  obtain ⟨-, -, y0, y1, y2⟩ := cut_facts t
  have hj0 : (j 0).val < 32 := by have h : (j 0).val < win0_2.xsize (grid0.coords t) (0 : Fin 3) := (j 0).isLt; rw [y0] at h; exact h
  have hj1 : (j 1).val < 1 := by have h : (j 1).val < win0_2.xsize (grid0.coords t) (1 : Fin 3) := (j 1).isLt; rw [y1] at h; exact h
  have hj2 : (j 2).val < min 2048 (100000 - t.val * 2048) := by
    have h : (j 2).val < win0_2.xsize (grid0.coords t) (2 : Fin 3) := (j 2).isLt; rw [y2] at h; exact h
  have hv : t.val * 2048 + (j 2).val < 100000 := by omega
  have e1 : win0_2.xinj (grid0.coords t) j = ix3 (⟨(j 0).val, hj0⟩ : Fin 32) (⟨(j 1).val, hj1⟩ : Fin 1) (⟨(j 2).val, by omega⟩ : Fin 2048) :=
    funext fun a => Fin.ext (by match a with | ⟨0, _⟩ => rfl | ⟨1, _⟩ => rfl | ⟨2, _⟩ => rfl)
  have e2 : (win0_2.blk t).view.emb j = ix3 (⟨(j 0).val, hj0⟩ : Fin 32) (⟨(j 1).val, hj1⟩ : Fin 1) (⟨t.val * 2048 + (j 2).val, hv⟩ : Fin 100000) :=
    funext fun a => Fin.ext (by
      match a with
      | ⟨0, _⟩ => show win0_2.index t (0 : Fin 3) * 32 + 1 * (j 0).val = (j 0).val; rw [e5]; omega
      | ⟨1, _⟩ => show win0_2.index t (1 : Fin 3) * 1 + 1 * (j 1).val = (j 1).val; rw [e6]; omega
      | ⟨2, _⟩ => show win0_2.index t (2 : Fin 3) * 2048 + 1 * (j 2).val = t.val * 2048 + (j 2).val; rw [e7]; omega)
  show k0_pay1 (F := Ideal) (iblk m c 0 t) (win0_1.fill (grid0.coords t) d (iblk m c 1 t)) (win0_2.xinj (grid0.coords t) j)
    = outArr m c ((win0_2.blk t).view.emb j)
  rw [e1, e2]
  refine (Cert.KernelIdeal.Product.product_apply _ _ _ _ _).trans ?_
  refine Eq.trans ?_ (Cert.Logits.logits_ix3 _ _ _ _ _).symm
  unfold Cert.Logits.logitAt
  refine Finset.sum_congr rfl fun k _ => ?_
  rw [hidden_read m c t _ (⟨(j 1).val, hj1⟩ : Fin 1) k, weight_read m c t d _ k hv]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the hidden buffer at the hidden array; the weight and result buffers at their named
    contents on the part the transfers move, anything elsewhere. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  simp only [Window.cut_fill]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  -- the result buffer holds the product block; on the columns written back that is block `t` of `logits`
  iexists (k0_pay1 (F := Ideal) (iblk m c 0 t) (win0_1.fill (grid0.coords t) d1 (iblk m c 1 t)))
  rw [← head_cut m c t d1, Window.fill_cut, ← headBlock_eq]
  iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The logits array after the run -/

/-- What point `t` writes back is block `t` of `logits`. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  exact win0_2.cut_fill _ _ _

/-- An index of the logits array is in point `t`'s block iff each coordinate is in the block's range, cut at the
    array's end. -/
theorem mem_blk (t : Fin cfg0.N) (i : S32x1x100000.Idx) :
    i ∈ ((cfg0.win 2).blk t).view.set ↔ ∀ a : Fin 3, win0_2.index t a * S32x1x2048.size a ≤ (i a).val
      ∧ (i a).val < win0_2.index t a * S32x1x2048.size a + win0_2.xsize (grid0.coords t) a := by
  show i ∈ ((View.whole main_v0).slice (win0_2.rect t)).set ↔ _
  rw [View.set_slice_whole, Rect.mem_set_unit]
  exact Iff.rfl

/-- Column `v` is written back at point `v / 2048`. -/
theorem cover (i : S32x1x100000.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 100000 := (i 2).isLt
  have hN : cfg0.N = 49 := N_0
  refine ⟨⟨(i 2).val / 2048, by omega⟩, flush0_2 _, ?_⟩
  rw [mem_blk]
  obtain ⟨-, -, -, -, -, e5, e6, e7⟩ := idx_facts ⟨(i 2).val / 2048, by omega⟩
  obtain ⟨-, -, y0, y1, y2⟩ := cut_facts ⟨(i 2).val / 2048, by omega⟩
  intro a
  match a with
  | ⟨0, _⟩ =>
    show win0_2.index _ (0 : Fin 3) * 32 ≤ (i 0).val ∧ (i 0).val < win0_2.index _ (0 : Fin 3) * 32 + win0_2.xsize _ (0 : Fin 3)
    rw [e5, y0]; omega
  | ⟨1, _⟩ =>
    show win0_2.index _ (1 : Fin 3) * 1 ≤ (i 1).val ∧ (i 1).val < win0_2.index _ (1 : Fin 3) * 1 + win0_2.xsize _ (1 : Fin 3)
    rw [e6, y1]; omega
  | ⟨2, _⟩ =>
    show win0_2.index _ (2 : Fin 3) * 2048 ≤ (i 2).val ∧ (i 2).val < win0_2.index _ (2 : Fin 3) * 2048 + win0_2.xsize _ (2 : Fin 3)
    rw [e7, y2]
    show (i 2).val / 2048 * 2048 ≤ (i 2).val ∧ (i 2).val < (i 2).val / 2048 * 2048 + min 2048 (100000 - (i 2).val / 2048 * 2048)
    omega

/-- The logits array ends at `logits` of the argument arrays. -/
theorem final (c : Dev nD) : (dats m 0 c).arrAt 2 cfg0.N = outArr m c :=
  (dats m 0 c).arrAt_eq_of_cover 2 (outArr m c) (fun t _ => flushed_eq m c t) cover

/-- The run, read: the logits at `logits`, the arguments unchanged. -/
theorem run : θ_run defs (onTc (τ := τ) (main (F := Ideal))) ⟨m, fun _ => 0, ρ⟩ fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Run

end
-- ==== Proof.lean ====
/-
  The output head `logits = hidden · weightᵀ`: a kernel that streams the 100000 × 1024 weight matrix through in 49
  blocks of 2048 rows, against the whole contraction `btd,vd->btv`.

  Over the extended reals both programs compute `logits h w (b, z, v) = ∑ k < 1024, h (b, z, k) · w (v, k)`. The
  reference's one contraction is that sum index by index. The kernel computes it a block of 2048 columns at a time;
  the last block overhangs the matrix by 352 rows, but a column of the product reads one weight row only, so the
  1696 columns written back there are computed from rows inside the matrix. No law beyond reading both sums at an
  index is needed, and the inputs' finiteness is never used. The idealization rewrote no operation, so there is
  nothing to preserve; the word-level kernel's frame says nothing of the logits' values.
-/
import proofs.«181677_g17927193493834_cont_7to1_830_20_alg».proof.Defs
import proofs.«181677_g17927193493834_cont_7to1_830_20_alg».proof.Proof.Gen.Kernel
import proofs.«181677_g17927193493834_cont_7to1_830_20_alg».proof.Proof.Gen.KernelIdeal
import proofs.«181677_g17927193493834_cont_7to1_830_20_alg».proof.Proof.Gen.ReferenceIdeal
import proofs.«181677_g17927193493834_cont_7to1_830_20_alg».proof.Proof.Gen.Pre_finite_inputs
import proofs.«181677_g17927193493834_cont_7to1_830_20_alg».proof.Proof.Gen.ReferenceIdeal.Run
import proofs.«181677_g17927193493834_cont_7to1_830_20_alg».proof.Proof.Gen.ReferenceIdeal.Read
import proofs.«181677_g17927193493834_cont_7to1_830_20_alg».proof.Proof.HeadFrame
import proofs.«181677_g17927193493834_cont_7to1_830_20_alg».proof.Proof.HeadRunIdeal
import proofs.«181677_g17927193493834_cont_7to1_830_20_alg».proof.Proof.Logits
import Idealize.ShloMosaic.Adequacy
import Idealize.ShloMosaic.Init

noncomputable section

open Idealize.ShloMosaic Idealize.ShloMosaic.TcCoe Idealize.SL.Sem

/-! ## The reference's contraction is `logits` -/

namespace Cert.ReferenceIdeal.RefValue

open Cert.ReferenceIdeal Cert.ReferenceIdeal.Gen Cert.ReferenceIdeal.Read Idealize.ShloMosaic.ValueIdx

/-- Entry `i` of the contraction pairs hidden row `(i 0, i 1)` with weight row `i 2`. -/
theorem contraction_eq (x0 : (⟨S32x1x1024, .f32⟩ : BufTy).Contents (Elt Ideal)) (x1 : (⟨S100000x1024, .f32⟩ : BufTy).Contents (Elt Ideal)) :
    val_main_v0 (F := Ideal) x0 x1 = Cert.Logits.logits x0 x1 := by
  funext i
  rw [val_main_v0_apply]
  unfold Cert.Logits.logits Cert.Logits.logitAt
  refine Finset.sum_congr rfl fun k _ => ?_
  have el : lidx_main_v0 i k = ix3 (i 0) (i 1) k :=
    funext fun a => Fin.ext (by match a with | ⟨0, _⟩ => rfl | ⟨1, _⟩ => rfl | ⟨2, _⟩ => rfl)
  have er : ridx_main_v0 i k = ix2 (i 2) k :=
    funext fun a => Fin.ext (by match a with | ⟨0, _⟩ => rfl | ⟨1, _⟩ => rfl)
  exact congr (congrArg _ (congrArg x0 el)) (congrArg x1 er)

end Cert.ReferenceIdeal.RefValue

/-! ## The claims -/

namespace Cert.Proof

theorem frame_k : Cert.frame_Kernel := fun m ρ _ => Cert.Kernel.Frame.frame (F := Bits) m ρ

theorem frame_ki : Cert.frame_KernelIdeal := fun m ρ _ =>
  (θ_run Cert.KernelIdeal.defs _ _).mono (fun _ h c => (h c).2) (Cert.KernelIdeal.Run.run m ρ)

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the logits array at `logits` of arguments that agree. -/
theorem algebraic : Cert.algebraic_KernelIdeal_ReferenceIdeal := by
  intro m ρ m' ρ' _ hagree
  refine ⟨fun c => Cert.KernelIdeal.Run.outArr m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.contraction_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
